-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v3)) (v2 : (c : Dev Cert.KernelIdeal.nD) → Buf (Elt Ideal) ((c.tc : Thread Cert.KernelIdeal.nD Cert.KernelIdeal.τ).loc Cert.KernelIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_v5) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v4) = v1 c
          ∧ r.2.mem ((c.tc : Thread Cert.ReferenceIdeal.nD Cert.ReferenceIdeal.τ).loc Cert.ReferenceIdeal.main_v6) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x256x64x64 : Shape := ⟨4, ![32, 256, 64, 64]⟩
abbrev S256 : Shape := ⟨1, ![256]⟩
abbrev S100x100 : Shape := ⟨2, ![100, 100]⟩
abbrev S_ : Shape := ⟨0, ![]⟩

class Facts : Prop where
  bcast_S_S32x256x64x64 : S_.BroadcastsInDim S32x256x64x64 (![] : Fin 0 → Fin S32x256x64x64.rank)
  reducesTo_S32x256x64x64_S_d0_1_2_3 : S32x256x64x64.ReducesTo [0, 1, 2, 3] S_
  h_S_ : 0 < S_.numel
  bcast_S_S256 : S_.BroadcastsInDim S256 (![] : Fin 0 → Fin S256.rank)
  reducesTo_S256_S_d0 : S256.ReducesTo [0] S_
  bcast_S_S100x100 : S_.BroadcastsInDim S100x100 (![] : Fin 0 → Fin S100x100.rank)
  reducesTo_S100x100_S_d0_1 : S100x100.ReducesTo [0, 1] S_

variable [Facts]

def fn {F : FTy → Type} [FloatOps F] (main_arg0 : FVec F S32x256x64x64 .f32) (main_arg1 : FVec F S256 .f32) (main_arg2 : FVec F S100x100 .f32) : IVec S_ 1 :=
  let main_v0 : FVec F S32x256x64x64 .f32 := Host.absf main_arg0
  let main_cst : FVec F S_ .f32 := constant S_ .f32 0x7F800000#32
  let main_v1 : FVec F S32x256x64x64 .f32 := broadcastInDim S32x256x64x64 ![] bcast_S_S32x256x64x64 main_cst
  let main_v2 : IVec S32x256x64x64 1 := cmpf .olt main_v0 main_v1
  let main_c : IVec S_ 1 := constantI S_ 1 1#1
  let main_v3 : IVec S_ 1 := (fun x v => Host.reduce IntOp.andi x v reducesTo_S32x256x64x64_S_d0_1_2_3 h_S_) main_v2 main_c
  let main_v4 : FVec F S256 .f32 := Host.absf main_arg1
  let main_cst_0 : FVec F S_ .f32 := constant S_ .f32 0x7F800000#32
  let main_v5 : FVec F S256 .f32 := broadcastInDim S256 ![] bcast_S_S256 main_cst_0
  let main_v6 : IVec S256 1 := cmpf .olt main_v4 main_v5
  let main_c_1 : IVec S_ 1 := constantI S_ 1 1#1
  let main_v7 : IVec S_ 1 := (fun x v => Host.reduce IntOp.andi x v reducesTo_S256_S_d0 h_S_) main_v6 main_c_1
  let main_v8 : IVec S_ 1 := andi main_v3 main_v7
  let main_v9 : FVec F S100x100 .f32 := Host.absf main_arg2
  let main_cst_2 : FVec F S_ .f32 := constant S_ .f32 0x7F800000#32
  let main_v10 : FVec F S100x100 .f32 := broadcastInDim S100x100 ![] bcast_S_S100x100 main_cst_2
  let main_v11 : IVec S100x100 1 := cmpf .olt main_v9 main_v10
  let main_c_3 : IVec S_ 1 := constantI S_ 1 1#1
  let main_v12 : IVec S_ 1 := (fun x v => Host.reduce IntOp.andi x v reducesTo_S100x100_S_d0_1 h_S_) main_v11 main_c_3
  let main_v13 : IVec S_ 1 := andi main_v8 main_v12
  main_v13
-- ==== Kernel.lean ====
abbrev S32x256x64x64 : Shape := ⟨4, ![32, 256, 64, 64]⟩
abbrev S256 : Shape := ⟨1, ![256]⟩
abbrev S100x100 : Shape := ⟨2, ![100, 100]⟩
abbrev S32x256x4096 : Shape := ⟨3, ![32, 256, 4096]⟩
abbrev S1x256 : Shape := ⟨2, ![1, 256]⟩
abbrev S8x128x1024 : Shape := ⟨3, ![8, 128, 1024]⟩
abbrev S1x128 : Shape := ⟨2, ![1, 128]⟩
abbrev S8x128 : Shape := ⟨2, ![8, 128]⟩
abbrev S128 : Shape := ⟨1, ![128]⟩
abbrev S_ : Shape := ⟨0, ![]⟩

abbrev nBuf : Space → Nat
  | .hbm => 10
  | .vmem => 7
  | .smem => 0
  | _ => 0

abbrev bufTy : (tb : Table) → Fin (tcTables nBuf tb) → BufTy
  | .hbm, ⟨0, _⟩ => ⟨S32x256x64x64, .f32⟩
  | .hbm, ⟨1, _⟩ => ⟨S256, .f32⟩
  | .hbm, ⟨2, _⟩ => ⟨S100x100, .f32⟩
  | .hbm, ⟨3, _⟩ => ⟨S32x256x4096, .f32⟩
  | .hbm, ⟨4, _⟩ => ⟨S1x256, .f32⟩
  | .hbm, ⟨5, _⟩ => ⟨S1x256, .f32⟩
  | .hbm, ⟨6, _⟩ => ⟨S256, .f32⟩
  | .hbm, ⟨7, _⟩ => ⟨S_, .f32⟩
  | .hbm, ⟨8, _⟩ => ⟨S100x100, .f32⟩
  | .hbm, ⟨9, _⟩ => ⟨S100x100, .f32⟩
  | .local _ .vmem, ⟨0, _⟩ => ⟨S8x128x1024, .f32⟩
  | .local _ .vmem, ⟨1, _⟩ => ⟨S8x128x1024, .f32⟩
  | .local _ .vmem, ⟨2, _⟩ => ⟨S1x128, .f32⟩
  | .local _ .vmem, ⟨3, _⟩ => ⟨S1x128, .f32⟩
  | .local _ .vmem, ⟨4, _⟩ => ⟨S1x128, .f32⟩
  | .local _ .vmem, ⟨5, _⟩ => ⟨S1x128, .f32⟩
  | .local _ .vmem, ⟨6, _⟩ => ⟨S1x128, .f32⟩
  | _, _ => ⟨S32x256x64x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst : Ref sig .tc := ⟨.hbm, 7, rfl⟩
abbrev main_v4 : Ref sig .tc := ⟨.hbm, 8, rfl⟩
abbrev main_v5 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 4], ![false, false, false]⟩

def k0_cond2 (i : grid0.Coords) : BitVec 1 :=
  let arg1 : BitVec 32 := BitVec.ofNat 32 (i 1).val
  let c3_i32 : BitVec 32 := 3#32
  let v16 : BitVec 1 := Scalar.cmpi .eq arg1 c3_i32
  let arg2 : BitVec 32 := BitVec.ofNat 32 (i 2).val
  let c3_i32_9 : BitVec 32 := 3#32
  let v17 : BitVec 1 := Scalar.cmpi .eq arg2 c3_i32_9
  let v18 : BitVec 1 := Scalar.andi v16 v17
  let v19 : BitVec 32 := Scalar.extui v18
  let c0_i32_10 : BitVec 32 := 0#32
  let v20 : BitVec 1 := Scalar.cmpi .ne v19 c0_i32_10
  v20

def cc0_transform_0 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat]

abbrev stage0_0 : Fin 2 → Memref sig .tc .vmem S8x128x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, false]

abbrev stage0_2 : Fin 2 → Memref sig .tc .vmem S1x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false, false]

class Facts₀ : Prop where
  shapeCasts_S32x256x64x64_S32x256x4096 : S32x256x64x64.ShapeCasts S32x256x4096
  shapeCasts_S256_S1x256 : S256.ShapeCasts S1x256
  inb_S1x128_S1x128_0_0 : ∀ a, (![0, 0] : Fin 2 → Nat) a + S1x128.size a ≤ S1x128.size a
  h_S1x128 : 0 < S1x128.numel
  shapeCasts_S1x128_S1x128 : S1x128.ShapeCasts S1x128
  inb_S8x128x1024_S8x128x1024_0_0_0 : ∀ a, (![0, 0, 0] : Fin 3 → Nat) a + S8x128x1024.size a ≤ S8x128x1024.size a
  h_S8x128x1024 : 0 < S8x128x1024.numel
  shapeCasts_S8x128x1024_S8x128x1024 : S8x128x1024.ShapeCasts S8x128x1024
  reduces_S8x128x1024_S8x128 : S8x128x1024.Reduces [2] S8x128
  reduces_S8x128_S128 : S8x128.Reduces [0] S128
  shapeCasts_S128_S1x128 : S128.ShapeCasts S1x128
  shapeCasts_S1x256_S256 : S1x256.ShapeCasts S256
  bcast_S_S100x100 : S_.BroadcastsInDim S100x100 (![] : Fin 0 → Fin S100x100.rank)
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8x128x1024.size a ≤ S32x256x4096.size a
  hwx0_0 : ∀ i : grid0.Coords, EltTy.bits .f32 = 32 ∨ (Rect.block (s := S32x256x4096) S8x128x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128.size a ≤ S1x256.size a
  hwx0_1 : ∀ i : grid0.Coords, EltTy.bits .f32 = 32 ∨ (Rect.block (s := S1x256) S1x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x128.size a ≤ S1x256.size a
  hwx0_2 : ∀ i : grid0.Coords, EltTy.bits .f32 = 32 ∨ (Rect.block (s := S1x256) S1x128.size (cc0_transform_2 i) (hinb0_2 i)).WholeWords (EltTy.packing .f32)

variable [Facts₀]

abbrev win0_0 : Pipeline.Window sig grid0 :=
  Pipeline.Window.ofSpec (Memref.whole main_v0) S8x128x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev idle0 : Fin 3 → grid0.Coords → Bool := fun | 0 => fun _ => false | 1 => fun _ => false | 2 => fun i => !(k0_cond2 i == 1#1) | ⟨_ + 3, h⟩ => absurd h (Nat.not_lt.2 (Nat.le_add_left _ _))

class Facts : Prop extends Facts₀ where

variable [Facts]
-- ==== ReferenceIdeal.lean ====
abbrev S32x256x64x64 : Shape := ⟨4, ![32, 256, 64, 64]⟩
abbrev S256 : Shape := ⟨1, ![256]⟩
abbrev S100x100 : Shape := ⟨2, ![100, 100]⟩
abbrev S_ : Shape := ⟨0, ![]⟩

abbrev nBuf : Space → Nat
  | .hbm => 13
  | .vmem => 0
  | .smem => 0
  | _ => 0

abbrev bufTy : (tb : Table) → Fin (tcTables nBuf tb) → BufTy
  | .hbm, ⟨0, _⟩ => ⟨S32x256x64x64, .f32⟩
  | .hbm, ⟨1, _⟩ => ⟨S256, .f32⟩
  | .hbm, ⟨2, _⟩ => ⟨S100x100, .f32⟩
  | .hbm, ⟨3, _⟩ => ⟨S32x256x64x64, .f32⟩
  | .hbm, ⟨4, _⟩ => ⟨S_, .f32⟩
  | .hbm, ⟨5, _⟩ => ⟨S256, .f32⟩
  | .hbm, ⟨6, _⟩ => ⟨S_, .f32⟩
  | .hbm, ⟨7, _⟩ => ⟨S256, .f32⟩
  | .hbm, ⟨8, _⟩ => ⟨S256, .f32⟩
  | .hbm, ⟨9, _⟩ => ⟨S256, .f32⟩
  | .hbm, ⟨10, _⟩ => ⟨S_, .f32⟩
  | .hbm, ⟨11, _⟩ => ⟨S100x100, .f32⟩
  | .hbm, ⟨12, _⟩ => ⟨S100x100, .f32⟩
  | _, _ => ⟨S32x256x64x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_cst : Ref sig .tc := ⟨.hbm, 4, rfl⟩
abbrev main_v1 : Ref sig .tc := ⟨.hbm, 5, rfl⟩
abbrev main_cst_0 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_1 : Ref sig .tc := ⟨.hbm, 10, rfl⟩
abbrev main_v5 : Ref sig .tc := ⟨.hbm, 11, rfl⟩
abbrev main_v6 : Ref sig .tc := ⟨.hbm, 12, rfl⟩

abbrev nD : Nat := 1
abbrev τ : Topo := Topo.v7x

variable {F : FTy → Type} [FloatOps F]

class Facts₀ : Prop where
  reducesTo_S32x256x64x64_S256_d0_2_3 : S32x256x64x64.ReducesTo [0, 2, 3] S256
  h_S_ : 0 < S_.numel
  bcast_S_S256 : S_.BroadcastsInDim S256 (![] : Fin 0 → Fin S256.rank)
  bcast_S_S100x100 : S_.BroadcastsInDim S100x100 (![] : Fin 0 → Fin S100x100.rank)

variable [Facts₀]

class Facts : Prop extends Facts₀ where

variable [Facts]
-- ==== Proof.Sums.lean ====
/-
  Sums over the tiles of a [32,256,64,64] array regrouped as sums over the whole array, in any commutative monoid.
-/
import Idealize.ShloMosaic.Lib.ValueIdx

noncomputable section

open Idealize.ShloMosaic Idealize.ShloMosaic.ValueIdx
open scoped BigOperators

namespace Cert.MeanAbs

variable {M : Type} [AddCommMonoid M]

/-- An array of shape [32,256,64,64] as a function of four natural-number coordinates (zero outside the box). -/
def nat4 (x : (⟨4, ![32, 256, 64, 64]⟩ : Shape).Idx → M) (B ch h w : ℕ) : M :=
  if hb : B < 32 ∧ ch < 256 ∧ h < 64 ∧ w < 64 then x (ix4 ⟨B, hb.1⟩ ⟨ch, hb.2.1⟩ ⟨h, hb.2.2.1⟩ ⟨w, hb.2.2.2⟩) else 0

/-- Every entry is the function of its coordinates' values. -/
theorem nat4_apply (x : (⟨4, ![32, 256, 64, 64]⟩ : Shape).Idx → M) (I : (⟨4, ![32, 256, 64, 64]⟩ : Shape).Idx) :
    x I = nat4 x (I 0).val (I 1).val (I 2).val (I 3).val := by
  have h0 : (I 0).val < 32 := (I 0).isLt
  have h1 : (I 1).val < 256 := (I 1).isLt
  have h2 : (I 2).val < 64 := (I 2).isLt
  have h3 : (I 3).val < 64 := (I 3).isLt
  unfold nat4
  rw [dif_pos ⟨h0, h1, h2, h3⟩]
  exact congrArg x (eq_ix4 I)

/-- A sum over `range (a * b)` is the double sum over blocks: position `p * b + q` is place `q` of block `p`. -/
theorem sum_range_mul (a b : ℕ) (f : ℕ → M) :
    ∑ s ∈ Finset.range (a * b), f s = ∑ p ∈ Finset.range a, ∑ q ∈ Finset.range b, f (p * b + q) := by
  induction a with
  | zero => simp
  | succ a ih =>
    rw [Nat.succ_mul, Finset.sum_range_add, ih, Finset.sum_range_succ]

/-- The same with the length given as a number known to be the product. -/
theorem sum_range_eq_mul (n a b : ℕ) (h : n = a * b) (f : ℕ → M) :
    ∑ s ∈ Finset.range n, f s = ∑ p ∈ Finset.range a, ∑ q ∈ Finset.range b, f (p * b + q) := by
  subst h
  exact sum_range_mul a b f

/-- A sum over (height, width) pairs is the sum over flattened positions, split into 4 blocks of 1024. -/
theorem sum_hw_blocks (G : ℕ → ℕ → M) :
    ∑ h ∈ Finset.range 64, ∑ w ∈ Finset.range 64, G h w
      = ∑ f ∈ Finset.range 4, ∑ k ∈ Finset.range 1024, G ((1024 * f + k) / 64) ((1024 * f + k) % 64) := by
  calc ∑ h ∈ Finset.range 64, ∑ w ∈ Finset.range 64, G h w
      = ∑ q ∈ Finset.range 4096, G (q / 64) (q % 64) := by
        rw [sum_range_eq_mul 4096 64 64 rfl]
        refine Finset.sum_congr rfl fun h _ => Finset.sum_congr rfl fun w hw => ?_
        have hw' := Finset.mem_range.mp hw
        have h1 : (h * 64 + w) / 64 = h := by omega
        have h2 : (h * 64 + w) % 64 = w := by omega
        rw [h1, h2]
    _ = ∑ f ∈ Finset.range 4, ∑ k ∈ Finset.range 1024, G ((1024 * f + k) / 64) ((1024 * f + k) % 64) := by
        rw [sum_range_eq_mul 4096 4 1024 rfl]
        refine Finset.sum_congr rfl fun f _ => Finset.sum_congr rfl fun k _ => ?_
        rw [Nat.mul_comm f 1024]

/-- The 16 steps of a channel tile (step s = 4·b + f reads batch rows 8b..8b+7 and flattened positions
    1024f..1024f+1023, position q being the pair (q / 64, q % 64)) together read every batch row and every position once. -/
theorem tiles_regroup (g : ℕ → ℕ → ℕ → M) :
    ∑ s ∈ Finset.range 16, ∑ i ∈ Finset.range 8, ∑ k ∈ Finset.range 1024,
        g (8 * (s / 4) + i) ((1024 * (s % 4) + k) / 64) ((1024 * (s % 4) + k) % 64)
      = ∑ B ∈ Finset.range 32, ∑ h ∈ Finset.range 64, ∑ w ∈ Finset.range 64, g B h w := by
  have hL : ∑ s ∈ Finset.range 16, ∑ i ∈ Finset.range 8, ∑ k ∈ Finset.range 1024,
        g (8 * (s / 4) + i) ((1024 * (s % 4) + k) / 64) ((1024 * (s % 4) + k) % 64)
      = ∑ b ∈ Finset.range 4, ∑ f ∈ Finset.range 4, ∑ i ∈ Finset.range 8, ∑ k ∈ Finset.range 1024,
          g (8 * b + i) ((1024 * f + k) / 64) ((1024 * f + k) % 64) := by
    rw [sum_range_eq_mul 16 4 4 rfl]
    refine Finset.sum_congr rfl fun b _ => Finset.sum_congr rfl fun f hf => ?_
    have hf' := Finset.mem_range.mp hf
    have h1 : (b * 4 + f) / 4 = b := by omega
    have h2 : (b * 4 + f) % 4 = f := by omega
    rw [h1, h2]
  have hR : ∑ B ∈ Finset.range 32, ∑ h ∈ Finset.range 64, ∑ w ∈ Finset.range 64, g B h w
      = ∑ b ∈ Finset.range 4, ∑ f ∈ Finset.range 4, ∑ i ∈ Finset.range 8, ∑ k ∈ Finset.range 1024,
          g (8 * b + i) ((1024 * f + k) / 64) ((1024 * f + k) % 64) := by
    rw [sum_range_eq_mul 32 4 8 rfl]
    refine Finset.sum_congr rfl fun b _ => ?_
    calc ∑ i ∈ Finset.range 8, ∑ h ∈ Finset.range 64, ∑ w ∈ Finset.range 64, g (b * 8 + i) h w
        = ∑ i ∈ Finset.range 8, ∑ f ∈ Finset.range 4, ∑ k ∈ Finset.range 1024,
            g (8 * b + i) ((1024 * f + k) / 64) ((1024 * f + k) % 64) := by
          refine Finset.sum_congr rfl fun i _ => ?_
          rw [sum_hw_blocks, Nat.mul_comm b 8]
      _ = ∑ f ∈ Finset.range 4, ∑ i ∈ Finset.range 8, ∑ k ∈ Finset.range 1024,
            g (8 * b + i) ((1024 * f + k) / 64) ((1024 * f + k) % 64) := Finset.sum_comm
  rw [hL, hR]

/-- The entries of channel `ch` are the triples (batch row, height, width). -/
theorem fiber_sum (f : (⟨4, ![32, 256, 64, 64]⟩ : Shape).Idx → M) (ch : Fin 256) :
    ∑ I ∈ Finset.univ.filter (fun I : (⟨4, ![32, 256, 64, 64]⟩ : Shape).Idx => (I 1).val = ch.val), f I
      = ∑ B ∈ Finset.range 32, ∑ h ∈ Finset.range 64, ∑ w ∈ Finset.range 64, nat4 f B ch.val h w := by
  have hR : ∑ B ∈ Finset.range 32, ∑ h ∈ Finset.range 64, ∑ w ∈ Finset.range 64, nat4 f B ch.val h w
      = ∑ p : Fin 32 × Fin 64 × Fin 64, f (ix4 p.1 ch p.2.1 p.2.2) := by
    rw [Fintype.sum_prod_type, Finset.sum_range]
    refine Finset.sum_congr rfl fun B _ => ?_
    rw [Fintype.sum_prod_type, Finset.sum_range]
    refine Finset.sum_congr rfl fun h _ => ?_
    rw [Finset.sum_range]
    refine Finset.sum_congr rfl fun w _ => ?_
    unfold nat4
    rw [dif_pos ⟨B.isLt, ch.isLt, h.isLt, w.isLt⟩]
  rw [hR]
  symm
  refine Finset.sum_bij' (fun p _ => ix4 p.1 ch p.2.1 p.2.2)
    (fun I _ => ((I 0 : Fin 32), (I 2 : Fin 64), (I 3 : Fin 64))) ?_ ?_ ?_ ?_ ?_
  · intro p _
    exact Finset.mem_filter.mpr ⟨Finset.mem_univ _, rfl⟩
  · intro I _
    exact Finset.mem_univ _
  · intro p _
    rfl
  · intro I hI
    have hc : (I 1).val = ch.val := (Finset.mem_filter.mp hI).2
    funext a
    match a with
    | ⟨0, _⟩ => rfl
    | ⟨1, _⟩ => exact Fin.ext hc.symm
    | ⟨2, _⟩ => rfl
    | ⟨3, _⟩ => rfl
  · intro p _
    rfl

end Cert.MeanAbs

end
-- ==== Proof.Spec.lean ====
/-
  The updated energy as one function of the two argument arrays: entry ch is the old energy plus the sum of |x| over
  every batch row, height and width of channel ch, times the scale word (the f32 pattern of 2^-17 = 1/(32·64·64)).
-/
import proofs.«179446_j82995948028301_2_alg».proof.Proof.Sums
import Idealize.ShloMosaic.PureOps.Ideal

noncomputable section

open Idealize.ShloMosaic Idealize.ShloMosaic.ValueIdx
open scoped BigOperators

namespace Cert.MeanAbs

/-- The sum of |x| over channel `ch`: all 32 batch rows, 64 heights and 64 widths. -/
def chanAbsSum (x : (⟨4, ![32, 256, 64, 64]⟩ : Shape).Idx → Ideal .f32) (ch : ℕ) : Ideal .f32 :=
  ∑ B ∈ Finset.range 32, ∑ h ∈ Finset.range 64, ∑ w ∈ Finset.range 64,
    nat4 (fun I => FloatOps.absf (F := Ideal) (φ := .f32) (x I)) B ch h w

/-- The updated energy vector. -/
def energySpec (x : (⟨4, ![32, 256, 64, 64]⟩ : Shape).Idx → Ideal .f32) (e : (⟨1, ![256]⟩ : Shape).Idx → Ideal .f32) :
    (⟨1, ![256]⟩ : Shape).Idx → Ideal .f32 :=
  fun J => e J + chanAbsSum x (J 0).val * Ideal.ofBits .f32 0x37000000#32

end Cert.MeanAbs

end
-- ==== Proof.RefSide.lean ====
/-
  The reference's result at one channel, read off its run one operation at a time.
-/
import proofs.«179446_j82995948028301_2_alg».proof.Defs
import proofs.«179446_j82995948028301_2_alg».proof.Proof.Gen.ReferenceIdeal.Run
import proofs.«179446_j82995948028301_2_alg».proof.Proof.Gen.ReferenceIdeal.Read
import proofs.«179446_j82995948028301_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Cert.MeanAbs Idealize.ShloMosaic Idealize.ShloMosaic.ValueIdx

/-- The divisor word denotes 131072 = 32 · 64 · 64. -/
theorem ofBits_131072 : Ideal.ofBits .f32 0x48000000#32 = ((131072 : ℝ) : EReal) := by
  simp [Ideal.ofBits, Ideal.ieee, -EReal.coe_mul]; norm_num

/-- The scale word denotes 1 / 131072 = 2 ^ (-17). -/
theorem ofBits_inv_131072 : Ideal.ofBits .f32 0x37000000#32 = ((1 / 131072 : ℝ) : EReal) := by
  simp [Ideal.ofBits, Ideal.ieee, -EReal.coe_mul]; norm_num

/-- The reduce at a channel: the initial word plus the sum of |x| over the channel. -/
theorem v1_apply (x0 : S32x256x64x64.Idx → Ideal .f32) (ch : Fin 256) :
    Read.val_main_v1 (F := Ideal) x0 (ix1 ch) = Ideal.ofBits .f32 0x00000000#32 + chanAbsSum x0 ch.val := by
  show Ideal.hostReduceAdd _ _ _ (ix1 ch) = _
  unfold Ideal.hostReduceAdd
  congr 1
  rw [Finset.filter_congr (q := fun I => (I 1).val = ch.val) ?_]
  · exact fiber_sum (fun I => FloatOps.absf (x0 I)) ch
  · intro I _
    constructor
    · intro h
      exact congrArg (fun J => (J 0).val) h
    · intro h
      funext a
      match a with
      | ⟨0, _⟩ => exact Fin.ext h

/-- The reference's energy result is the specification. -/
theorem energy_eq (x0 : S32x256x64x64.Idx → Ideal .f32) (x1 : S256.Idx → Ideal .f32) :
    Read.val_main_v4 (F := Ideal) x0 x1 = energySpec x0 x1 := by
  funext J
  obtain ⟨ch, rfl⟩ : ∃ ch : Fin 256, J = ix1 ch := ⟨J 0, eq_ix1 J⟩
  rw [Read.val_main_v4_apply, Read.val_main_v3_apply, Read.val_main_v2_apply, Read.val_main_cst_0_apply, v1_apply]
  rw [Ideal.addf_def, Ideal.hostDivf_def, Ideal.ofBits_def, Ideal.ofBits_zero_f32, zero_add, ofBits_131072,
    Ideal.div_coe (by norm_num)]
  unfold energySpec
  rw [ofBits_inv_131072]

end Cert.ReferenceIdeal.RefValue

end
-- ==== Proof.Pieces.lean ====
/-
  What each control case of the kernel body leaves behind, as values of its loads.
  The accumulator row is overwritten whole by every case, and the output row by the last case only,
  so each is the payload of the covering store applied to what the body loaded.
-/
import proofs.«179446_j82995948028301_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl

/-- A middle point: the accumulator row holding `acc` ends at the accumulate payload of the data block and `acc`. -/
theorem acc_B (c : Dev nD) (i : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : ¬cond0_0 i) (hc1 : ¬cond0_1 i)
    (x0 : Vec F S8x128x1024 .f32) (x1 : Vec F S1x128 .f32) (xs0 : Vec F S1x128 .f32) :
    sout0_B_0 c i a3 h3 a4 h4 a5 h5 a6 h6 hc0 hc1 x0 x1 xs0 = k0_pay2 x0 xs0 := by
  unfold sout0_B_0
  rw [View.read_writes_eq_canon _ _ _ (scover0_B_0 c i a3 h3 a4 h4 a5 h5 a6 h6 hc0 hc1 x0 x1 xs0)]
  unfold kernelRun0_B
  dsimp only
  rw [View.canon_unit_zero hz2]
  simp only [View.readAt_eq_ld, h3.read_unread, h6.read_unread, View.ld_unit_zero (S := S8x128x1024) hz3,
    View.ld_unit_zero (S := S1x128) hz2]

/-- A last point of a channel tile: the accumulator row is updated exactly as at a middle point. -/
theorem acc_C (c : Dev nD) (i : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : ¬cond0_0 i) (hc1 : cond0_1 i)
    (x0 : Vec F S8x128x1024 .f32) (x1 : Vec F S1x128 .f32) (xs0 : Vec F S1x128 .f32) :
    sout0_C_0 c i a3 h3 a4 h4 a5 h5 a6 h6 hc0 hc1 x0 x1 xs0 = k0_pay2 x0 xs0 := by
  unfold sout0_C_0
  rw [View.read_writes_eq_canon _ _ _ (scover0_C_0 c i a3 h3 a4 h4 a5 h5 a6 h6 hc0 hc1 x0 x1 xs0)]
  unfold kernelRun0_C
  dsimp only
  sl_unfold_words
  rw [View.canon_unit_zero hz2]
  simp only [View.readAt_eq_ld, h3.read_unread, h6.read_unread, View.ld_unit_zero (S := S8x128x1024) hz3,
    View.ld_unit_zero (S := S1x128) hz2]

/-- A last point of a channel tile: the output row ends at the finalize payload of the energy block and of the
    accumulator row as this very point has just updated it (the load reads back the store before it). -/
theorem out_C (c : Dev nD) (i : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : ¬cond0_0 i) (hc1 : cond0_1 i)
    (x0 : Vec F S8x128x1024 .f32) (x1 : Vec F S1x128 .f32) (xs0 : Vec F S1x128 .f32) :
    out0_C_2 c i a3 h3 a4 h4 a5 h5 a6 h6 hc0 hc1 x0 x1 xs0 = k0_pay3 x1 (k0_pay2 x0 xs0) := by
  unfold out0_C_2
  rw [View.read_writes_eq_canon _ _ _ (cover0_C_2 c i a3 h3 a4 h4 a5 h5 a6 h6 hc0 hc1 x0 x1 xs0)]
  unfold kernelRun0_C
  dsimp only
  sl_unfold_words
  rw [View.canon_unit_zero hz2, View.readCov_unit_zero (S := S1x128) _ hz2]
  simp only [View.readAt_eq_ld, h3.read_unread, h4.read_unread, h6.read_unread, View.ld_unit_zero (S := S8x128x1024) hz3,
    View.ld_unit_zero (S := S1x128) hz2]

/-- A first point of a channel tile: the accumulator row is zeroed, read back, and ends at the accumulate payload of the
    data block and the zero row. -/
theorem acc_A (c : Dev nD) (i : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : cond0_0 i) (hc1 : ¬cond0_1 i)
    (x0 : Vec F S8x128x1024 .f32) (x1 : Vec F S1x128 .f32) :
    sout0_A_0 c i a3 h3 a4 h4 a5 h5 a6 h6 hc0 hc1 x0 x1 = k0_pay2 x0 (k0_pay1 (F := F)) := by
  unfold sout0_A_0
  rw [View.read_writes_eq_canon _ _ _ (scover0_A_0 c i a3 h3 a4 h4 a5 h5 a6 h6 hc0 hc1 x0 x1)]
  unfold kernelRun0_A
  dsimp only
  sl_unfold_words
  rw [View.canon_cons_unit_zero (S := S1x128) hz2, View.readCov_unit_zero (S := S1x128) _ hz2]
  simp only [View.readAt_eq_ld, h3.read_unread, View.ld_unit_zero (S := S8x128x1024) hz3]

end Cert.KernelIdeal.Pieces

end
-- ==== Proof.Payloads.lean ====
/-
  The three stored values of the kernel body, read at one lane of the row, over the extended reals:
  the zero row; the accumulator row plus, lane by lane, the sum over the block's 8 batch rows and 1024
  positions of the absolute values; the energy row plus the accumulator row times the scale word.
-/
import proofs.«179446_j82995948028301_2_alg».proof.Proof.Gen.KernelIdeal.Skeleton
import Idealize.ShloMosaic.Lib.ValueIdx
import Idealize.ShloMosaic.Lib.ValueLayout
import Idealize.ShloMosaic.Lib.Pipeline.Value
import Idealize.ShloMosaic.PureOps.Ideal.Laws

noncomputable section

open Idealize.ShloMosaic Idealize.ShloMosaic.ValueIdx
open scoped BigOperators

namespace Cert.KernelIdeal.Payloads

open Cert.KernelIdeal Cert.KernelIdeal.Gen

/-- The sum over the last axis, then over the first, of an [8,128,1024] block, at lane `j`: the double sum over
    the 8 rows and the 1024 positions of the block's entries in that lane. -/
theorem laneRowSum_apply (v : FVec Ideal S8x128x1024 .f32) (j : Fin 128) :
    multiReduction .add [0] S128
        (multiReduction .add [2] S8x128 v 0x00000000#32 reduces_S8x128x1024_S8x128 (.inl rfl) rfl)
        0x00000000#32 reduces_S8x128_S128 (.inl rfl) rfl (ix1 j)
      = ∑ i : Fin 8, ∑ k : Fin 1024, v (ix3 i j k) := by
  refine (Ideal.multiReduction_add_single _ 0x00000000#32 reduces_S8x128_S128 (.inl rfl) rfl (ix1 j)).trans ?_
  refine Finset.sum_congr rfl fun i _ => ?_
  refine (Ideal.multiReduction_add_single v 0x00000000#32 reduces_S8x128x1024_S8x128 (.inl rfl) rfl _).trans ?_
  refine Finset.sum_congr rfl fun k _ => ?_
  refine congrArg v ?_
  funext a
  match a with
  | ⟨0, _⟩ => rfl
  | ⟨1, _⟩ => rfl
  | ⟨2, _⟩ => rfl

/-- The zero row is zero in every lane. -/
theorem zeroRow_apply (u : Fin 1) (j : Fin 128) : k0_pay1 (F := Ideal) (ix2 u j) = 0 := by
  unfold k0_pay1
  rw [shapeCast_self]
  exact Ideal.ofBits_zero_f32

/-- The accumulate payload at lane `j`: the accumulator's entry plus the block's sum of absolute values in that lane. -/
theorem accumulate_apply (x0 : FVec Ideal S8x128x1024 .f32) (acc : FVec Ideal S1x128 .f32) (u : Fin 1) (j : Fin 128) :
    k0_pay2 (F := Ideal) x0 acc (ix2 u j)
      = acc (ix2 u j) + ∑ i : Fin 8, ∑ k : Fin 1024, FloatOps.absf (x0 (ix3 i j k)) := by
  unfold k0_pay2
  dsimp only
  rw [shapeCast_self, shapeCast_self]
  show acc (ix2 u j) + shapeCast S1x128 _ shapeCasts_S128_S1x128 (ix2 u j) = _
  refine congrArg (acc (ix2 u j) + ·) ?_
  refine (shapeCast_a_1a_apply _ shapeCasts_S128_S1x128 u j).trans ?_
  exact laneRowSum_apply (absf x0) j

/-- The finalize payload at lane `j`: the energy entry plus the accumulator's entry times the scale word. -/
theorem finalize_apply (e acc : FVec Ideal S1x128 .f32) (u : Fin 1) (j : Fin 128) :
    k0_pay3 (F := Ideal) e acc (ix2 u j)
      = e (ix2 u j) + acc (ix2 u j) * Ideal.ofBits .f32 0x37000000#32 := by
  unfold k0_pay3
  rw [shapeCast_self]
  rfl

end Cert.KernelIdeal.Payloads

end
-- ==== Proof.Blocks.lean ====
/-
  Where the kernel's window blocks sit in the argument arrays. The data array is the 4-d input with its last two axes
  flattened (position q is the pair (q / 64, q % 64)); at grid point t — channel tile t / 16, batch tile (t % 16) / 4,
  position tile t % 4 — the data block holds batch rows 8·bt .. 8·bt + 7, channels 128·ct .. 128·ct + 127 and positions
  1024·ft .. 1024·ft + 1023, and the energy block holds the channels of tile ct.
-/
import proofs.«179446_j82995948028301_2_alg».proof.Proof.Gen.KernelIdeal.Frame
import proofs.«179446_j82995948028301_2_alg».proof.Proof.Sums
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open scoped BigOperators

namespace Cert.KernelIdeal.Blocks

open Cert.KernelIdeal Cert.KernelIdeal.Gen

variable {F : FTy → Type} [FloatOps F]
variable (m : (ℓ : Loc nD τ sig) → Buf (Elt F) ℓ)

/-- Flattening the last two axes: entry (B, ch, q) of the cast reads the operand at (B, ch, q / 64, q % 64). -/
theorem flatten_apply {α : Type} (x : S32x256x64x64.Idx → α) (J : S32x256x4096.Idx) (I : S32x256x64x64.Idx)
    (h0 : (I 0).val = (J 0).val) (h1 : (I 1).val = (J 1).val) (h2 : (I 2).val = (J 2).val / 64)
    (h3 : (I 3).val = (J 2).val % 64) :
    shapeCast S32x256x4096 x shapeCasts_S32x256x64x64_S32x256x4096 J = x I := by
  refine shapeCast_apply x _ J I ?_
  rw [Shape.rowMajor_val_four, Shape.rowMajor_val_three]
  show (((I 0).val * 256 + (I 1).val) * 64 + (I 2).val) * 64 + (I 3).val = ((J 0).val * 256 + (J 1).val) * 4096 + (J 2).val
  rw [h0, h1, h2, h3]
  omega

/-- The index maps over the grid, in closed form. -/
theorem data_index : ∀ t : Fin cfg0.N,
    win0_0.index t 0 = (t.val % 16) / 4 ∧ win0_0.index t 1 = t.val / 16 ∧ win0_0.index t 2 = t.val % 4 :=
  (by decide +kernel : ∀ t : Fin grid0.N,
    win0_0.index t 0 = (t.val % 16) / 4 ∧ win0_0.index t 1 = t.val / 16 ∧ win0_0.index t 2 = t.val % 4)
theorem energy_index : ∀ t : Fin cfg0.N, win0_1.index t 0 = 0 ∧ win0_1.index t 1 = t.val / 16 :=
  (by decide +kernel : ∀ t : Fin grid0.N, win0_1.index t 0 = 0 ∧ win0_1.index t 1 = t.val / 16)
theorem out_index : ∀ t : Fin cfg0.N, win0_2.index t 0 = 0 ∧ win0_2.index t 1 = t.val / 16 :=
  (by decide +kernel : ∀ t : Fin grid0.N, win0_2.index t 0 = 0 ∧ win0_2.index t 1 = t.val / 16)

/-- What the region finds in the data array: the 4-d input with its last two axes flattened. -/
theorem V_data (c : Dev nD) :
    (V m c main_v0 : S32x256x4096.Idx → Elt F .f32)
      = shapeCast S32x256x4096 (m ((c : Thread nD τ).loc main_arg0)) shapeCasts_S32x256x64x64_S32x256x4096 := by
  show StableHlo.after hostOps0 (fun b => m (c, b)) (Proc.devRef .tc main_v0) = _
  after_results
  rfl

/-- What the region finds in the energy array: the energy vector laid out as one row. -/
theorem V_energy (c : Dev nD) :
    (V m c main_v1 : S1x256.Idx → Elt F .f32)
      = shapeCast S1x256 (m ((c : Thread nD τ).loc main_arg1)) shapeCasts_S256_S1x256 := by
  show StableHlo.after hostOps0 (fun b => m (c, b)) (Proc.devRef .tc main_v1) = _
  after_results
  rfl

/-- An entry of the data block at point `t` is the input's entry at the batch row, channel, height and width named above. -/
theorem data_apply (c : Dev nD) (t : Fin cfg0.N) (i : Fin 8) (j : Fin 128) (k : Fin 1024) (I : S32x256x64x64.Idx)
    (h0 : (I 0).val = 8 * ((t.val % 16) / 4) + i.val) (h1 : (I 1).val = 128 * (t.val / 16) + j.val)
    (h2 : (I 2).val = (1024 * (t.val % 4) + k.val) / 64) (h3 : (I 3).val = (1024 * (t.val % 4) + k.val) % 64) :
    (iblk m c 0 t : Vec F S8x128x1024 .f32) (ix3 i j k) = m ((c : Thread nD τ).loc main_arg0) I := by
  unfold iblk
  rw [View.read_apply]
  show V m c main_v0 (((cfg0.win 0).blk t).view.emb (ix3 i j k)) = _
  rw [V_data]
  refine flatten_apply _ _ I ?_ ?_ ?_ ?_
  · rw [h0]; show _ = win0_0.index t 0 * 8 + 1 * i.val; rw [(data_index t).1]; omega
  · rw [h1]; show _ = win0_0.index t 1 * 128 + 1 * j.val; rw [(data_index t).2.1]; omega
  · rw [h2]; show _ = (win0_0.index t 2 * 1024 + 1 * k.val) / 64; rw [(data_index t).2.2]; omega
  · rw [h3]; show _ = (win0_0.index t 2 * 1024 + 1 * k.val) % 64; rw [(data_index t).2.2]; omega

/-- An entry of the energy block at point `t` is the energy vector's entry at that channel. -/
theorem energy_apply (c : Dev nD) (t : Fin cfg0.N) (u : Fin 1) (j : Fin 128) (n : Fin 256)
    (hn : n.val = 128 * (t.val / 16) + j.val) :
    (iblk m c 1 t : Vec F S1x128 .f32) (ix2 u j) = m ((c : Thread nD τ).loc main_arg1) (ix1 n) := by
  unfold iblk
  rw [View.read_apply]
  show V m c main_v1 (((cfg0.win 1).blk t).view.emb (ix2 u j)) = _
  rw [V_energy]
  refine shapeCast_apply _ _ _ (ix1 n) ?_
  rw [Shape.rowMajor_val_two, Shape.rowMajor_val_one]
  show n.val = (win0_1.index t 0 * 1 + 1 * u.val) * 256 + (win0_1.index t 1 * 128 + 1 * j.val)
  rw [(energy_index t).1, (energy_index t).2, hn]
  have : u.val = 0 := by omega
  omega

end Cert.KernelIdeal.Blocks

end
-- ==== Proof.Accum.lean ====
/-
  The running sum the accumulator row holds. After grid point n (channel tile n / 16, step n % 16 of its 16 steps),
  lane j of the accumulator is the sum over the steps s ≤ n % 16 of that tile of the step's block sum: the sum over
  the block's 8 batch rows and 1024 positions of |x| in channel 128·(n / 16) + j. The first step of a tile starts from
  the zero row, every later step adds to what the step before left; addition on the extended reals has 0 as unit.
-/
import proofs.«179446_j82995948028301_2_alg».proof.Proof.Gen.KernelIdeal.Frame
import proofs.«179446_j82995948028301_2_alg».proof.Proof.Sums
import proofs.«179446_j82995948028301_2_alg».proof.Proof.Spec
import proofs.«179446_j82995948028301_2_alg».proof.Proof.Pieces
import proofs.«179446_j82995948028301_2_alg».proof.Proof.Payloads
import proofs.«179446_j82995948028301_2_alg».proof.Proof.Blocks

noncomputable section

open Idealize.ShloMosaic Idealize.ShloMosaic.TcCoe Idealize.SL.Sem Idealize.ShloMosaic.ValueIdx
open scoped BigOperators

namespace Cert.KernelIdeal.Accum

open Cert.KernelIdeal Cert.KernelIdeal.Gen Cert.MeanAbs

variable (m : (ℓ : Loc nD τ sig) → Buf (Elt Ideal) ℓ)

/-- |x| of the 4-d input, as a function of four natural coordinates. -/
def absIn (c : Dev nD) : ℕ → ℕ → ℕ → ℕ → Ideal .f32 :=
  nat4 (fun I : S32x256x64x64.Idx => FloatOps.absf (F := Ideal) (φ := .f32) (m ((c : Thread nD τ).loc main_arg0) I))

/-- The block sum of step `n` in lane `j`. -/
def stepSum (c : Dev nD) (n j : ℕ) : Ideal .f32 :=
  ∑ i ∈ Finset.range 8, ∑ k ∈ Finset.range 1024,
    absIn m c (8 * ((n % 16) / 4) + i) (128 * (n / 16) + j) ((1024 * (n % 4) + k) / 64) ((1024 * (n % 4) + k) % 64)

/-- The data block's sum of absolute values in lane `j` is the step's block sum. -/
theorem blockSum_eq (c : Dev nD) (t : Fin cfg0.N) (j : Fin 128) :
    ∑ i : Fin 8, ∑ k : Fin 1024, FloatOps.absf (F := Ideal) (φ := .f32) ((iblk m c 0 t : Vec Ideal S8x128x1024 .f32) (ix3 i j k))
      = stepSum m c t.val j.val := by
  have hN : t.val < 32 := lt_of_lt_of_eq t.isLt (show cfg0.N = 32 from N_0)
  unfold stepSum
  rw [← Fin.sum_univ_eq_sum_range (fun i => ∑ k ∈ Finset.range 1024,
    absIn m c (8 * ((t.val % 16) / 4) + i) (128 * (t.val / 16) + j.val) ((1024 * (t.val % 4) + k) / 64) ((1024 * (t.val % 4) + k) % 64)) 8]
  refine Finset.sum_congr rfl fun i _ => ?_
  rw [← Fin.sum_univ_eq_sum_range (fun k =>
    absIn m c (8 * ((t.val % 16) / 4) + i.val) (128 * (t.val / 16) + j.val) ((1024 * (t.val % 4) + k) / 64) ((1024 * (t.val % 4) + k) % 64)) 1024]
  refine Finset.sum_congr rfl fun k _ => ?_
  have hi := i.isLt; have hj := j.isLt; have hk := k.isLt
  rw [Blocks.data_apply m c t i j k
    (ix4 (⟨8 * ((t.val % 16) / 4) + i.val, by omega⟩ : Fin 32) (⟨128 * (t.val / 16) + j.val, by omega⟩ : Fin 256)
      (⟨(1024 * (t.val % 4) + k.val) / 64, by omega⟩ : Fin 64) (⟨(1024 * (t.val % 4) + k.val) % 64, by omega⟩ : Fin 64))
    rfl rfl rfl rfl]
  exact nat4_apply (fun I : S32x256x64x64.Idx => FloatOps.absf (F := Ideal) (φ := .f32) (m ((c : Thread nD τ).loc main_arg0) I)) _

/-! ## One step, over any block contents -/

/-- A tile's first step leaves, in lane `j`, the block's sum of absolute values (the zero row plus it). -/
theorem step_first (c : Dev nD) (g : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : cond0_0 g) (hc1 : ¬cond0_1 g)
    (x0 : Vec Ideal S8x128x1024 .f32) (x1 : Vec Ideal S1x128 .f32) (u : Fin 1) (j : Fin 128) :
    sout0_A_0 c g a3 h3 a4 h4 a5 h5 a6 h6 hc0 hc1 x0 x1 (ix2 u j)
      = ∑ i : Fin 8, ∑ k : Fin 1024, FloatOps.absf (F := Ideal) (φ := .f32) (x0 (ix3 i j k)) := by
  rw [Pieces.acc_A]
  refine (Payloads.accumulate_apply x0 _ u j).trans ?_
  rw [Payloads.zeroRow_apply, zero_add]

/-- A middle step adds the block's sum to what the accumulator held. -/
theorem step_middle (c : Dev nD) (g : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : ¬cond0_0 g) (hc1 : ¬cond0_1 g)
    (x0 : Vec Ideal S8x128x1024 .f32) (x1 prev : Vec Ideal S1x128 .f32) (u : Fin 1) (j : Fin 128) :
    sout0_B_0 c g a3 h3 a4 h4 a5 h5 a6 h6 hc0 hc1 x0 x1 prev (ix2 u j)
      = prev (ix2 u j) + ∑ i : Fin 8, ∑ k : Fin 1024, FloatOps.absf (F := Ideal) (φ := .f32) (x0 (ix3 i j k)) := by
  rw [Pieces.acc_B]
  exact Payloads.accumulate_apply x0 prev u j

/-- So does a tile's last step. -/
theorem step_last (c : Dev nD) (g : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : ¬cond0_0 g) (hc1 : cond0_1 g)
    (x0 : Vec Ideal S8x128x1024 .f32) (x1 prev : Vec Ideal S1x128 .f32) (u : Fin 1) (j : Fin 128) :
    sout0_C_0 c g a3 h3 a4 h4 a5 h5 a6 h6 hc0 hc1 x0 x1 prev (ix2 u j)
      = prev (ix2 u j) + ∑ i : Fin 8, ∑ k : Fin 1024, FloatOps.absf (F := Ideal) (φ := .f32) (x0 (ix3 i j k)) := by
  rw [Pieces.acc_C]
  exact Payloads.accumulate_apply x0 prev u j

/-- A tile's last step leaves in the output row the energy entry plus the scaled accumulator as just updated. -/
theorem out_last (c : Dev nD) (g : grid0.Coords) (a3 : Memref sig .tc .vmem S8x128x1024 .f32) (h3 : a3.IsWhole)
    (a4 : Memref sig .tc .vmem S1x128 .f32) (h4 : a4.IsWhole) (a5 : Memref sig .tc .vmem S1x128 .f32) (h5 : a5.IsWhole)
    (a6 : Memref sig .tc .vmem S1x128 .f32) (h6 : a6.IsWhole) (hc0 : ¬cond0_0 g) (hc1 : cond0_1 g)
    (x0 : Vec Ideal S8x128x1024 .f32) (x1 prev : Vec Ideal S1x128 .f32) (u : Fin 1) (j : Fin 128) :
    out0_C_2 c g a3 h3 a4 h4 a5 h5 a6 h6 hc0 hc1 x0 x1 prev (ix2 u j)
      = x1 (ix2 u j) + (prev (ix2 u j) + ∑ i : Fin 8, ∑ k : Fin 1024, FloatOps.absf (F := Ideal) (φ := .f32) (x0 (ix3 i j k)))
          * Ideal.ofBits .f32 0x37000000#32 := by
  rw [Pieces.out_C]
  refine (Payloads.finalize_apply x1 _ u j).trans ?_
  rw [Payloads.accumulate_apply]

/-! ## The accumulator point by point -/

/-- At a tile's first point the accumulator holds that step's block sum. -/
theorem acc_at_first (c : Dev nD) (t : Fin cfg0.N) (h0 : t.val % 16 = 0) (h1 : ¬t.val % 16 = 15) (u : Fin 1) (j : Fin 128) :
    (outsAt0 m c t.val t.isLt).2 (ix2 u j) = stepSum m c t.val j.val := by
  rw [outsAt0_A m c t h0 h1]
  dsimp only
  refine (step_first c (grid0.coords t) (ms0_0 t) (hs0_0 t) (ms0_1 t) (hs0_1 t) (ms0_2 t) (hs0_2 t) scM0_0
    (Memref.isWhole_whole _) ((hcond0_0 t).mpr h0) (fun h => h1 ((hcond0_1 t).mp h)) (iblk m c 0 t) (iblk m c 1 t) u j).trans ?_
  exact blockSum_eq m c t j

/-- At a later point it holds what the point before left plus this step's block sum. -/
theorem acc_at_later (c : Dev nD) (t : Fin cfg0.N) (h0 : ¬t.val % 16 = 0) (u : Fin 1) (j : Fin 128) :
    (outsAt0 m c t.val t.isLt).2 (ix2 u j)
      = (outsAt0 m c (t.val - 1) (Nat.lt_of_le_of_lt (Nat.sub_le _ _) t.isLt)).2 (ix2 u j) + stepSum m c t.val j.val := by
  by_cases h1 : t.val % 16 = 15
  · rw [outsAt0_C m c t h0 h1]
    dsimp only
    refine (step_last c (grid0.coords t) (ms0_0 t) (hs0_0 t) (ms0_1 t) (hs0_1 t) (ms0_2 t) (hs0_2 t) scM0_0
      (Memref.isWhole_whole _) (fun h => h0 ((hcond0_0 t).mp h)) ((hcond0_1 t).mpr h1) (iblk m c 0 t) (iblk m c 1 t)
      (outsAt0 m c (t.val - 1) (Nat.lt_of_le_of_lt (Nat.sub_le _ _) t.isLt)).2 u j).trans ?_
    rw [blockSum_eq m c t j]
  · rw [outsAt0_B m c t h0 h1]
    dsimp only
    refine (step_middle c (grid0.coords t) (ms0_0 t) (hs0_0 t) (ms0_1 t) (hs0_1 t) (ms0_2 t) (hs0_2 t) scM0_0
      (Memref.isWhole_whole _) (fun h => h0 ((hcond0_0 t).mp h)) (fun h => h1 ((hcond0_1 t).mp h)) (iblk m c 0 t) (iblk m c 1 t)
      (outsAt0 m c (t.val - 1) (Nat.lt_of_le_of_lt (Nat.sub_le _ _) t.isLt)).2 u j).trans ?_
    rw [blockSum_eq m c t j]

/-- THE RUNNING SUM: after point `n` the accumulator holds the block sums of the steps 0 .. n % 16 of n's tile. -/
theorem acc_eq (c : Dev nD) : ∀ (n : ℕ) (hn : n < cfg0.N) (u : Fin 1) (j : Fin 128),
    (outsAt0 m c n hn).2 (ix2 u j) = ∑ s ∈ Finset.range (n % 16 + 1), stepSum m c (16 * (n / 16) + s) j.val := by
  intro n
  induction n with
  | zero =>
    intro hn u j
    have e := acc_at_first m c ⟨0, hn⟩ rfl (show ¬(0 % 16 = 15) from by decide) u j
    rw [show (0 % 16 + 1) = 1 from rfl, Finset.sum_range_one]
    exact e
  | succ n ih =>
    intro hn u j
    by_cases h0 : (n + 1) % 16 = 0
    · have h1 : ¬(n + 1) % 16 = 15 := by omega
      have e := acc_at_first m c ⟨n + 1, hn⟩ h0 h1 u j
      have e1 : (n + 1) % 16 + 1 = 1 := by omega
      have e2 : 16 * ((n + 1) / 16) + 0 = n + 1 := by omega
      rw [e1, Finset.sum_range_one, e2]
      exact e
    · have e := acc_at_later m c ⟨n + 1, hn⟩ h0 u j
      refine e.trans ?_
      show (outsAt0 m c n _).2 (ix2 u j) + _ = _
      rw [ih (Nat.lt_of_succ_lt hn) u j]
      have hm : (n + 1) % 16 = n % 16 + 1 := by omega
      have hd : (n + 1) / 16 = n / 16 := by omega
      rw [hm, hd, Finset.sum_range_succ (fun s => stepSum m c (16 * (n / 16) + s) j.val) (n % 16 + 1)]
      have e3 : 16 * (n / 16) + (n % 16 + 1) = n + 1 := by omega
      rw [e3]

/-! ## A whole tile -/

/-- The 16 block sums of channel tile `ct` add up, in lane `j`, to the sum of |x| over all of channel 128·ct + j. -/
theorem tile_total (c : Dev nD) (ct j : ℕ) :
    ∑ s ∈ Finset.range 16, stepSum m c (16 * ct + s) j = chanAbsSum (m ((c : Thread nD τ).loc main_arg0)) (128 * ct + j) := by
  have e : ∀ s ∈ Finset.range 16, stepSum m c (16 * ct + s) j
      = ∑ i ∈ Finset.range 8, ∑ k ∈ Finset.range 1024,
          absIn m c (8 * (s / 4) + i) (128 * ct + j) ((1024 * (s % 4) + k) / 64) ((1024 * (s % 4) + k) % 64) := by
    intro s hs
    have hs' := Finset.mem_range.mp hs
    have e1 : (16 * ct + s) % 16 = s := by omega
    have e2 : (16 * ct + s) / 16 = ct := by omega
    have e3 : (16 * ct + s) % 4 = s % 4 := by omega
    unfold stepSum
    rw [e1, e2, e3]
  rw [Finset.sum_congr rfl e]
  exact tiles_regroup (fun B h w => absIn m c B (128 * ct + j) h w)

end Cert.KernelIdeal.Accum

end
-- ==== Proof.KernelValue.lean ====
/-
  What the kernel's program leaves in its results. The output row of a channel tile is written once, at the tile's last
  step, when the accumulator holds the whole tile's sum: entry 128·ct + j is the old energy plus the channel's sum of |x|
  times the scale word. The two write-backs (points 15 and 31) cover the [1,256] array; the lines after the region lay
  it out as a vector and add one to every histogram entry.
-/
import proofs.«179446_j82995948028301_2_alg».proof.Proof.Gen.KernelIdeal.Frame
import proofs.«179446_j82995948028301_2_alg».proof.Proof.Sums
import proofs.«179446_j82995948028301_2_alg».proof.Proof.Spec
import proofs.«179446_j82995948028301_2_alg».proof.Proof.Pieces
import proofs.«179446_j82995948028301_2_alg».proof.Proof.Payloads
import proofs.«179446_j82995948028301_2_alg».proof.Proof.Blocks
import proofs.«179446_j82995948028301_2_alg».proof.Proof.Accum
import Idealize.ShloMosaic.Lib.ValueIdx
import Idealize.ShloMosaic.Lib.ValueLayout
import Idealize.ShloMosaic.Lib.Pipeline.Value
import Idealize.ShloMosaic.Lib.StableHlo.Run
import Idealize.ShloMosaic.Lib.Tactic

noncomputable section

open Idealize.ShloMosaic Idealize.ShloMosaic.TcCoe Idealize.SL.Sem Idealize.ShloMosaic.ValueIdx
open Idealize.ShloMosaic.Pipeline (Dat)
open scoped BigOperators

namespace Cert.KernelIdeal.Final

open Cert.KernelIdeal Cert.KernelIdeal.Gen Cert.MeanAbs

variable (m : (ℓ : Loc nD τ sig) → Buf (Elt Ideal) ℓ) (ρ : Dev nD → PrngReg)

/-- The updated energy laid out as the one row of a [1,256] array. -/
def rowSpec (c : Dev nD) : S1x256.Idx → Ideal .f32 :=
  fun J => energySpec (m ((c : Thread nD τ).loc main_arg0)) (m ((c : Thread nD τ).loc main_arg1))
    (ix1 (⟨(J 1).val, (J 1).isLt⟩ : Fin 256))

/-- At a tile's last point the output row holds, in lane `j`, the updated energy of channel 128·ct + j. -/
theorem out_at_last (c : Dev nD) (t : Fin cfg0.N) (h15 : t.val % 16 = 15) (u : Fin 1) (j : Fin 128) (n : Fin 256)
    (hn : n.val = 128 * (t.val / 16) + j.val) :
    (outsAt0 m c t.val t.isLt).1 (ix2 u j)
      = energySpec (m ((c : Thread nD τ).loc main_arg0)) (m ((c : Thread nD τ).loc main_arg1)) (ix1 n) := by
  have h0 : ¬t.val % 16 = 0 := by omega
  rw [outsAt0_C m c t h0 h15]
  dsimp only
  refine (Accum.out_last c (grid0.coords t) (ms0_0 t) (hs0_0 t) (ms0_1 t) (hs0_1 t) (ms0_2 t) (hs0_2 t) scM0_0
    (Memref.isWhole_whole _) (fun h => h0 ((hcond0_0 t).mp h)) ((hcond0_1 t).mpr h15) (iblk m c 0 t) (iblk m c 1 t)
    (outsAt0 m c (t.val - 1) (Nat.lt_of_le_of_lt (Nat.sub_le _ _) t.isLt)).2 u j).trans ?_
  rw [Accum.blockSum_eq m c t j, Accum.acc_eq m c (t.val - 1) _ u j, Blocks.energy_apply m c t u j n hn]
  have e1 : (t.val - 1) % 16 + 1 = 15 := by omega
  have e2 : (t.val - 1) / 16 = t.val / 16 := by omega
  have e3 : t.val = 16 * (t.val / 16) + 15 := by omega
  have e4 : Accum.stepSum m c t.val j.val = Accum.stepSum m c (16 * (t.val / 16) + 15) j.val := by rw [← e3]
  rw [e1, e2, e4, ← Finset.sum_range_succ (fun s => Accum.stepSum m c (16 * (t.val / 16) + s) j.val) 15,
    Accum.tile_total]
  unfold energySpec
  show _ + chanAbsSum _ _ * _ = _ + chanAbsSum _ n.val * _
  rw [hn]

/-- The output window's index map and block extents over the grid. -/
theorem out_xsize : ∀ t : Fin cfg0.N, win0_2.xsize (grid0.coords t) 0 = 1 ∧ win0_2.xsize (grid0.coords t) 1 = 128 :=
  (by decide +kernel : ∀ t : Fin grid0.N, win0_2.xsize (grid0.coords t) 0 = 1 ∧ win0_2.xsize (grid0.coords t) 1 = 128)

/-- What a write-back writes: the tile's block of the updated energy row. -/
theorem flushed_eq (c : Dev nD) (t : Fin cfg0.N) (hf : (cfg0.win 2).flush t = true) :
    (dats m 0 c).flushed 2 t = ((cfg0.win 2).blk t).view.read (Elt Ideal) (rowSpec m c) := by
  have hN : t.val < 32 := lt_of_lt_of_eq t.isLt (show cfg0.N = 32 from N_0)
  have h15 : t.val % 16 = 15 := (flush0_2 t).mp hf
  show (cfg0.win 2).cut (grid0.coords t) ((dats m 0 c).after 2 t) = _
  rw [after0_2]
  funext y
  rw [View.read_apply]
  have hy0 : (y 0).val < 1 := lt_of_lt_of_eq (y 0).isLt (out_xsize t).1
  have hy1 : (y 1).val < 128 := lt_of_lt_of_eq (y 1).isLt (out_xsize t).2
  have e : (cfg0.win 2).xinj (grid0.coords t) y
      = (ix2 (⟨(y 0).val, hy0⟩ : Fin 1) (⟨(y 1).val, hy1⟩ : Fin 128) : S1x128.Idx) :=
    funext fun a => by
      match a with
      | ⟨0, _⟩ => rfl
      | ⟨1, _⟩ => rfl
  show (outsAt0 m c t.val t.isLt).1 ((cfg0.win 2).xinj (grid0.coords t) y)
    = rowSpec m c (((cfg0.win 2).blk t).view.emb y)
  rw [e]
  have hcol : ((((cfg0.win 2).blk t).view.emb y) 1).val = 128 * (t.val / 16) + (y 1).val := by
    show win0_2.index t 1 * 128 + 1 * (y 1).val = _
    rw [(Blocks.out_index t).2]; omega
  exact out_at_last m c t h15 _ _
    ⟨((((cfg0.win 2).blk t).view.emb y) 1).val, ((((cfg0.win 2).blk t).view.emb y) 1).isLt⟩ hcol

/-- Every entry of the [1,256] array lies in the block written back at its tile's last point. -/
theorem cover (c : Dev nD) (J : S1x256.Idx) :
    ∃ t : Fin cfg0.N, (cfg0.win 2).flush t = true ∧ J ∈ ((cfg0.win 2).blk t).view.set := by
  have hN : cfg0.N = 32 := N_0
  have h0 : (J 0).val < 1 := (J 0).isLt
  have h1 : (J 1).val < 256 := (J 1).isLt
  let t : Fin cfg0.N := ⟨16 * ((J 1).val / 128) + 15, by omega⟩
  have ht : t.val = 16 * ((J 1).val / 128) + 15 := rfl
  refine ⟨t, (flush0_2 t).mpr (by rw [ht]; omega), ?_⟩
  show J ∈ ((View.whole main_v2).slice (win0_2.rect t)).set
  rw [View.set_slice_whole, Rect.mem_set_unit]
  intro a
  match a with
  | ⟨0, _⟩ =>
    show win0_2.index t 0 * win0_2.size 0 ≤ (J 0 : Nat) ∧ (J 0 : Nat) < win0_2.index t 0 * win0_2.size 0 + win0_2.xsize (grid0.coords t) 0
    rw [(Blocks.out_index t).1, (out_xsize t).1]; omega
  | ⟨1, _⟩ =>
    show win0_2.index t 1 * win0_2.size 1 ≤ (J 1 : Nat) ∧ (J 1 : Nat) < win0_2.index t 1 * win0_2.size 1 + win0_2.xsize (grid0.coords t) 1
    rw [(Blocks.out_index t).2, (out_xsize t).2, ht]
    show (16 * ((J 1).val / 128) + 15) / 16 * 128 ≤ (J 1).val ∧ (J 1).val < (16 * ((J 1).val / 128) + 15) / 16 * 128 + 128
    omega

/-- So the [1,256] array ends holding the updated energy row. -/
theorem final_row (c : Dev nD) : (dats m 0 c).arrAt 2 cfg0.N = rowSpec m c :=
  (dats m 0 c).arrAt_eq_of_cover 2 (rowSpec m c) (flushed_eq m c) (cover c)

/-- The energy result: the final [1,256] array laid out as a vector is the updated energy. -/
theorem tail_energy (c : Dev nD) :
    Pipeline.afterTail₀ cfgs (dats m) 0 (V0 m) [hostOps1] c main_v3
      = energySpec (m ((c : Thread nD τ).loc main_arg0)) (m ((c : Thread nD τ).loc main_arg1)) := by
  unfold Pipeline.afterTail₀
  show StableHlo.after hostOps1 _ (Proc.devRef .tc main_v3) = _
  after_results
  have hw : Pipeline.withArrays (cfgs 0).spec c (V0 m c) (fun w => (dats m 0 c).arrAt w (cfgs 0).N)
      (Proc.devRef .tc main_v2) = rowSpec m c :=
    (Pipeline.withArrays_arr spec0 launch0.win.arr_inj c _ _ 2).trans (final_row m c)
  funext J
  obtain ⟨n, rfl⟩ : ∃ n : Fin 256, J = ix1 n := ⟨J 0, eq_ix1 J⟩
  show shapeCast S256 (Pipeline.withArrays (cfgs 0).spec c (V0 m c) (fun w => (dats m 0 c).arrAt w (cfgs 0).N)
      (Proc.devRef .tc main_v2)) shapeCasts_S1x256_S256 (ix1 n) = _
  rw [hw]
  refine (shapeCast_1a_a_apply (rowSpec m c) shapeCasts_S1x256_S256 n).trans ?_
  rfl

/-- The histogram result: the untouched histogram plus one in every entry. -/
theorem tail_hist (c : Dev nD) :
    Pipeline.afterTail₀ cfgs (dats m) 0 (V0 m) [hostOps1] c main_v5
      = addf (m ((c : Thread nD τ).loc main_arg2))
          (broadcastInDim S100x100 ![] bcast_S_S100x100 (constant (F := Ideal) S_ .f32 0x3F800000#32)) := by
  unfold Pipeline.afterTail₀
  show StableHlo.after hostOps1 _ (Proc.devRef .tc main_v5) = _
  after_results
  rw [Pipeline.withArrays_of_ne _ c (V0 m c) _ main_arg2 (by exact (by decide : ∀ w, Pipeline.arrRef spec0 w ≠ main_arg2))]
  rw [show V0 m c (Proc.devRef .tc main_arg2) = m ((c : Thread nD τ).loc main_arg2) from V_main_arg2 m c]

/-- THE KERNEL'S RUN, READ: every weakly fair execution terminates with the energy result at the updated energy, the
    histogram result at the histogram plus one, and the three arguments unchanged. -/
theorem run : θ_run defs (onTc (τ := τ) (main (F := Ideal))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_v3)
          = energySpec (m ((c.tc : Thread nD τ).loc main_arg0)) (m ((c.tc : Thread nD τ).loc main_arg1))
      ∧ r.2.mem ((c.tc : Thread nD τ).loc main_v5)
          = addf (m ((c.tc : Thread nD τ).loc main_arg2))
              (broadcastInDim S100x100 ![] bcast_S_S100x100 (constant (F := Ideal) S_ .f32 0x3F800000#32))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨((h c).2 main_arg0 (Pipeline.mem_restRefs_of main_arg0 (by decide) (by decide))).trans (W_main_arg0 m (dats m) c),
     ((h c).2 main_v3 (Pipeline.mem_restRefs_of main_v3 (by decide) (by decide))).trans (tail_energy m c),
     ((h c).2 main_v5 (Pipeline.mem_restRefs_of main_v5 (by decide) (by decide))).trans (tail_hist m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c),
     ((h c).2 main_arg2 (Pipeline.mem_restRefs_of main_arg2 (by decide) (by decide))).trans (W_main_arg2 m (dats m) c)⟩)
    (run_main m ρ)

end Cert.KernelIdeal.Final

end
-- ==== Proof.lean ====
/-
  A per-channel mean of absolute values, accumulated over a grid, against jnp.mean.

  The kernel walks a [32,256,4096] view of the input (the last two axes flattened) over a 2 × 4 × 4 grid: channel tile,
  batch tile, position tile. Each step adds, lane by lane, the sum of |x| over its 8 batch rows and 1024 positions to
  an accumulator row that the first step of a channel tile zeroes; the last step of a tile writes
  energy + accumulator · 2^-17. The reference sums |x| over the batch, height and width axes from zero, divides by
  131072 and adds the energy. Over the extended reals the sixteen block sums of a tile are a regrouping of the
  channel's whole sum (addition is commutative and associative there, and 0 is its unit), and dividing by 131072 is
  multiplying by the real 1/131072, which is exactly what the scale word 2^-17 denotes: no finiteness of the inputs is
  used. The histogram result is the same two operations on both sides, and the input is returned untouched.

  The kernel's run is read off its generated frame run: the accumulator after each step by induction on the step, the
  two write-backs covering the [1,256] output, then the reshape after the region. The reference's run is its generated
  one, read stage by stage, the three-axis sum by hand.
-/
import proofs.«179446_j82995948028301_2_alg».proof.Defs
import proofs.«179446_j82995948028301_2_alg».proof.Proof.Gen.Kernel
import proofs.«179446_j82995948028301_2_alg».proof.Proof.Gen.Kernel.Skeleton
import proofs.«179446_j82995948028301_2_alg».proof.Proof.Gen.Kernel.Launch
import proofs.«179446_j82995948028301_2_alg».proof.Proof.Gen.Kernel.Points
import proofs.«179446_j82995948028301_2_alg».proof.Proof.Gen.Kernel.Frame
import proofs.«179446_j82995948028301_2_alg».proof.Proof.Gen.KernelIdeal
import proofs.«179446_j82995948028301_2_alg».proof.Proof.Gen.KernelIdeal.Skeleton
import proofs.«179446_j82995948028301_2_alg».proof.Proof.Gen.KernelIdeal.Launch
import proofs.«179446_j82995948028301_2_alg».proof.Proof.Gen.KernelIdeal.Points
import proofs.«179446_j82995948028301_2_alg».proof.Proof.Gen.KernelIdeal.Frame
import proofs.«179446_j82995948028301_2_alg».proof.Proof.Gen.ReferenceIdeal
import proofs.«179446_j82995948028301_2_alg».proof.Proof.Gen.Pre_finite_inputs
import proofs.«179446_j82995948028301_2_alg».proof.Proof.Gen.ReferenceIdeal.Run
import proofs.«179446_j82995948028301_2_alg».proof.Proof.Gen.ReferenceIdeal.Read
import proofs.«179446_j82995948028301_2_alg».proof.Proof.RefSide
import proofs.«179446_j82995948028301_2_alg».proof.Proof.KernelValue
import Idealize.ShloMosaic.Adequacy
import Idealize.ShloMosaic.Init

noncomputable section

namespace Cert.Proof

open Idealize.ShloMosaic Idealize.ShloMosaic.TcCoe Idealize.SL.Sem Cert.MeanAbs

/-- The word-level kernel terminates, faults nowhere and leaves its arguments as they were. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run, with the results dropped. -/
theorem frame_reference : Cert.frame_ReferenceIdeal := fun m ρ _ =>
  (θ_run Cert.ReferenceIdeal.defs _ _).mono (fun _ h c => (h c).2.2.2) (Cert.ReferenceIdeal.Value.run (F := Ideal) m ρ)

/-- The idealization rewrote no operation. -/
theorem preserves : Cert.preserves_Kernel_KernelIdeal := trivial

/-- From memories agreeing on the arguments both programs end with the input untouched, the updated energy
    (one function of the input and the old energy on both sides) and the histogram plus one. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => energySpec (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    fun c => addf (m ((c.tc : Thread Cert.KernelIdeal.nD Cert.KernelIdeal.τ).loc Cert.KernelIdeal.main_arg2))
      (broadcastInDim Cert.KernelIdeal.S100x100 ![] Cert.KernelIdeal.Facts₀.bcast_S_S100x100
        (constant (F := Ideal) Cert.KernelIdeal.S_ .f32 0x3F800000#32)),
    Cert.KernelIdeal.Final.run m ρ, ?_⟩
  refine (θ_run Cert.ReferenceIdeal.defs _ _).mono (fun _ h c => ?_) (Cert.ReferenceIdeal.Value.run (F := Ideal) m' ρ')
  obtain ⟨h0, h4, h6, k0, k1, k2⟩ := h c
  obtain ⟨a0, a1, a2⟩ := hagree c
  refine ⟨h0.trans a0, ?_, ?_, k0, k1, k2⟩
  · refine h4.trans ?_
    rw [Cert.ReferenceIdeal.Read.val_main_v4_eq, Cert.ReferenceIdeal.RefValue.energy_eq, a0, a1]
  · refine h6.trans ?_
    rw [a2]

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
